-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x384 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg2
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x384 : Shape := ⟨2, ![128, 384]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S384x128 : Shape := ⟨2, ![384, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 58
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x384, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S384x128, .f32⟩
  | .hbm, ⟨50, _⟩ => ⟨S128x128, .f32⟩
  | .hbm, ⟨51, _⟩ => ⟨S128x128, .bf16⟩
  | .hbm, ⟨52, _⟩ => ⟨S128x128, .f32⟩
  | .hbm, ⟨53, _⟩ => ⟨S128x128, .bf16⟩
  | .hbm, ⟨54, _⟩ => ⟨S128x128, .f32⟩
  | .hbm, ⟨55, _⟩ => ⟨S128x128, .bf16⟩
  | .hbm, ⟨56, _⟩ => ⟨S1x128, .f32⟩
  | .hbm, ⟨57, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x384_S384x128_1_0 : S128x384.Transposes [1, 0] S384x128
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x384 : Shape := ⟨2, ![128, 384]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x384, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x384, .f32⟩
  | .hbm, ⟨59, _⟩ => ⟨S384x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x384_S384x128_S50000x128_1_0_0_1_n_n_wf : DotDims.WF S50000x384 S384x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Blocks.lean ====
/-
  Where the ten grid points read and write.

  Point `t` holds rows `5000 t … 5000 t + 4999` of the four node arrays (features, first-hop means, second-hop sums,
  the reciprocal-degree column), the whole of the three weight blocks and of the bias row, and writes rows
  `5000 t …` of the output. Row `r` of the output is written by point `r / 5000`: the ten blocks tile the array.
-/
import proofs.«112017_j5179730559346_2_alg».proof.Proof.Gen.KernelIdeal.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Which block each window holds at point `t` -/

/-- The four row-tiled inputs and the output are at block row `t`, block column 0. -/
theorem moves : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_8.index t (0 : Fin 2) = t.val ∧ win0_8.index t (1 : Fin 2) = 0 :=
  (by decide +kernel : ∀ t : Fin grid0.N, _)

/-- The weight blocks and the bias row are whole at every point: block (0, 0). -/
theorem stays : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 ∧ True :=
  (by decide +kernel : ∀ t : Fin grid0.N, _)

theorem point_lt (t : Fin cfg0.N) : t.val < 10 := by
  have h : t.val < grid0.N := t.isLt
  rwa [N_0] at h

/-! ## The blocks, read off the arrays

Each read is stated for ANY contents of the window's array, and then taken at the contents the region finds. -/

/-- Row `p` of point `t`'s block of window 0's array is row `5000 t + p` of the array, whatever the array holds. -/
theorem rows_read0 (c : Dev nD) (A : Buf (Elt Ideal) ((c : Thread nD τ).loc (Pipeline.arrRef spec0 0))) (t : Fin cfg0.N) (p : Fin 5000) (k : Fin 128)
    (P : Fin 50000) (hP : P.val = t.val * 5000 + p.val) :
    ((cfg0.win 0).blk t).view.read (Elt Ideal) A (ix2 p k) = A (ix2 P k) := by
  obtain ⟨e0, e1, e2, e3, e4, e5, e6, e7, e8⟩ := moves t
  show A (((cfg0.win 0).blk t).view.emb (ix2 p k)) = A (ix2 P k)
  refine congrArg A (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- Row `p` of point `t`'s feature block is row `5000 t + p` of the features. -/
theorem features_block (c : Dev nD) (t : Fin cfg0.N) (p : Fin 5000) (k : Fin 128) (P : Fin 50000) (hP : P.val = t.val * 5000 + p.val) :
    iblk m c 0 t (ix2 p k) = V m c main_arg0 (ix2 P k) :=
  rows_read0 c (V m c main_arg0) t p k P hP

/-- Row `p` of point `t`'s block of window 1's array is row `5000 t + p` of the array, whatever the array holds. -/
theorem rows_read1 (c : Dev nD) (A : Buf (Elt Ideal) ((c : Thread nD τ).loc (Pipeline.arrRef spec0 1))) (t : Fin cfg0.N) (p : Fin 5000) (k : Fin 128)
    (P : Fin 50000) (hP : P.val = t.val * 5000 + p.val) :
    ((cfg0.win 1).blk t).view.read (Elt Ideal) A (ix2 p k) = A (ix2 P k) := by
  obtain ⟨e0, e1, e2, e3, e4, e5, e6, e7, e8⟩ := moves t
  show A (((cfg0.win 1).blk t).view.emb (ix2 p k)) = A (ix2 P k)
  refine congrArg A (funext fun a => Fin.ext ?_)
  match a with
  | ⟨0, _⟩ => show win0_1.index t (0 : Fin 2) * 5000 + 1 * p.val = P.val; omega
  | ⟨1, _⟩ => show win0_1.index t (1 : Fin 2) * 128 + 1 * k.val = k.val; omega

/-- Row `p` of point `t`'s block of first-hop means is row `5000 t + p` of that array. -/
theorem means_block (c : Dev nD) (t : Fin cfg0.N) (p : Fin 5000) (k : Fin 128) (P : Fin 50000) (hP : P.val = t.val * 5000 + p.val) :
    iblk m c 1 t (ix2 p k) = V m c main_v24 (ix2 P k) :=
  rows_read1 c (V m c main_v24) t p k P hP

/-- Row `p` of point `t`'s block of window 2's array is row `5000 t + p` of the array, whatever the array holds. -/
theorem rows_read2 (c : Dev nD) (A : Buf (Elt Ideal) ((c : Thread nD τ).loc (Pipeline.arrRef spec0 2))) (t : Fin cfg0.N) (p : Fin 5000) (k : Fin 128)
    (P : Fin 50000) (hP : P.val = t.val * 5000 + p.val) :
    ((cfg0.win 2).blk t).view.read (Elt Ideal) A (ix2 p k) = A (ix2 P k) := by
  obtain ⟨e0, e1, e2, e3, e4, e5, e6, e7, e8⟩ := moves t
  show A (((cfg0.win 2).blk t).view.emb (ix2 p k)) = A (ix2 P k)
  refine congrArg A (funext fun a => Fin.ext ?_)
  match a with
  | ⟨0, _⟩ => show win0_2.index t (0 : Fin 2) * 5000 + 1 * p.val = P.val; omega
  | ⟨1, _⟩ => show win0_2.index t (1 : Fin 2) * 128 + 1 * k.val = k.val; omega

/-- Row `p` of point `t`'s block of second-hop sums is row `5000 t + p` of that array. -/
theorem sums_block (c : Dev nD) (t : Fin cfg0.N) (p : Fin 5000) (k : Fin 128) (P : Fin 50000) (hP : P.val = t.val * 5000 + p.val) :
    iblk m c 2 t (ix2 p k) = V m c main_v34 (ix2 P k) :=
  rows_read2 c (V m c main_v34) t p k P hP

/-- Entry `p` of point `t`'s block of a column over the nodes is entry `5000 t + p` of the column, whatever it holds. -/
theorem col_read (c : Dev nD) (A : Buf (Elt Ideal) ((c : Thread nD τ).loc (Pipeline.arrRef spec0 3))) (t : Fin cfg0.N) (p : Fin 5000)
    (P : Fin 50000) (hP : P.val = t.val * 5000 + p.val) :
    ((cfg0.win 3).blk t).view.read (Elt Ideal) A (ix2 p 0) = A (ix2 P 0) := by
  obtain ⟨e0, e1, e2, e3, e4, e5, e6, e7, e8⟩ := moves t
  show A (((cfg0.win 3).blk t).view.emb (ix2 p 0)) = A (ix2 P 0)
  refine congrArg A (funext fun a => Fin.ext ?_)
  match a with
  | ⟨0, _⟩ => show win0_3.index t (0 : Fin 2) * 5000 + 1 * p.val = P.val; omega
  | ⟨1, _⟩ => show win0_3.index t (1 : Fin 2) * 1 + 1 * 0 = 0; omega

/-- Entry `p` of point `t`'s block of the reciprocal-degree column is entry `5000 t + p` of the column. -/
theorem recip_block (c : Dev nD) (t : Fin cfg0.N) (p : Fin 5000) (P : Fin 50000) (hP : P.val = t.val * 5000 + p.val) :
    iblk m c 3 t (ix2 p 0) = V m c main_v12 (ix2 P 0) :=
  col_read c (V m c main_v12) t p P hP

/-- Window 4 holds its whole 128 × 128 array at every point, whatever the array holds. -/
theorem whole_read4 (c : Dev nD) (A : Buf (Elt Ideal) ((c : Thread nD τ).loc (Pipeline.arrRef spec0 4))) (t : Fin cfg0.N) (k q : Fin 128) :
    ((cfg0.win 4).blk t).view.read (Elt Ideal) A (ix2 k q) = A (ix2 k q) := by
  obtain ⟨e0, e1, e2, e3, e4, e5, e6, e7, e8⟩ := stays t
  show A (((cfg0.win 4).blk t).view.emb (ix2 k q)) = A (ix2 k q)
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Every point holds the whole first weight block. -/
theorem weights0_block (c : Dev nD) (t : Fin cfg0.N) (k q : Fin 128) :
    iblk m c 4 t (ix2 k q) = V m c main_v37 (ix2 k q) :=
  whole_read4 c (V m c main_v37) t k q

/-- Window 5 holds its whole 128 × 128 array at every point, whatever the array holds. -/
theorem whole_read5 (c : Dev nD) (A : Buf (Elt Ideal) ((c : Thread nD τ).loc (Pipeline.arrRef spec0 5))) (t : Fin cfg0.N) (k q : Fin 128) :
    ((cfg0.win 5).blk t).view.read (Elt Ideal) A (ix2 k q) = A (ix2 k q) := by
  obtain ⟨e0, e1, e2, e3, e4, e5, e6, e7, e8⟩ := stays t
  show A (((cfg0.win 5).blk t).view.emb (ix2 k q)) = A (ix2 k q)
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- Every point holds the whole second weight block. -/
theorem weights1_block (c : Dev nD) (t : Fin cfg0.N) (k q : Fin 128) :
    iblk m c 5 t (ix2 k q) = V m c main_v39 (ix2 k q) :=
  whole_read5 c (V m c main_v39) t k q

/-- Window 6 holds its whole 128 × 128 array at every point, whatever the array holds. -/
theorem whole_read6 (c : Dev nD) (A : Buf (Elt Ideal) ((c : Thread nD τ).loc (Pipeline.arrRef spec0 6))) (t : Fin cfg0.N) (k q : Fin 128) :
    ((cfg0.win 6).blk t).view.read (Elt Ideal) A (ix2 k q) = A (ix2 k q) := by
  obtain ⟨e0, e1, e2, e3, e4, e5, e6, e7, e8⟩ := stays t
  show A (((cfg0.win 6).blk t).view.emb (ix2 k q)) = A (ix2 k q)
  refine congrArg A (funext fun a => Fin.ext ?_)
  match a with
  | ⟨0, _⟩ => show win0_6.index t (0 : Fin 2) * 128 + 1 * k.val = k.val; omega
  | ⟨1, _⟩ => show win0_6.index t (1 : Fin 2) * 128 + 1 * q.val = q.val; omega

/-- Every point holds the whole third weight block. -/
theorem weights2_block (c : Dev nD) (t : Fin cfg0.N) (k q : Fin 128) :
    iblk m c 6 t (ix2 k q) = V m c main_v41 (ix2 k q) :=
  whole_read6 c (V m c main_v41) t k q

/-- The bias row is whole at every point, whatever it holds. -/
theorem row_read (c : Dev nD) (A : Buf (Elt Ideal) ((c : Thread nD τ).loc (Pipeline.arrRef spec0 7))) (t : Fin cfg0.N) (q : Fin 128) :
    ((cfg0.win 7).blk t).view.read (Elt Ideal) A (ix2 0 q) = A (ix2 0 q) := by
  obtain ⟨e0, e1, e2, e3, e4, e5, e6, e7, e8⟩ := stays t
  show A (((cfg0.win 7).blk t).view.emb (ix2 0 q)) = A (ix2 0 q)
  refine congrArg A (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

/-- Every point holds the whole bias row. -/
theorem bias_block (c : Dev nD) (t : Fin cfg0.N) (q : Fin 128) :
    iblk m c 7 t (ix2 0 q) = V m c main_v42 (ix2 0 q) :=
  row_read c (V m c main_v42) t q

/-- Entry `(p, q)` of point `t`'s output block sits at `(5000 t + p, q)` of the output array. -/
theorem out_place (t : Fin cfg0.N) (p : Fin 5000) (q : Fin 128) (P : Fin 50000) (hP : P.val = t.val * 5000 + p.val) :
    ((cfg0.win 8).blk t).view.emb (ix2 p q) = ix2 P q := by
  obtain ⟨e0, e1, e2, e3, e4, e5, e6, e7, e8⟩ := moves t
  refine funext fun a => Fin.ext ?_
  match a with
  | ⟨0, _⟩ => show win0_8.index t (0 : Fin 2) * 5000 + 1 * p.val = P.val; omega
  | ⟨1, _⟩ => show win0_8.index t (1 : Fin 2) * 128 + 1 * q.val = q.val; omega

/-! ## The blocks tile the array -/

/-- An index of the output array is in point `t`'s block iff each coordinate is in the block's range on its axis. -/
theorem mem_blk (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v43).slice (win0_8.rect t)).set ↔ _
  rw [View.set_slice_whole, Rect.mem_set_unit]
  exact Iff.rfl

/-- Row `r` of the output is written by point `r / 5000`. -/
theorem cover (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_8 _, ?_⟩
  obtain ⟨e0, e1, e2, e3, e4, e5, e6, e7, e8, e9⟩ := moves ⟨(i 0).val / 5000, hN⟩
  rw [mem_blk]
  intro a
  match a with
  | ⟨0, _⟩ =>
    show win0_8.index ⟨(i 0).val / 5000, hN⟩ (0 : Fin 2) * 5000 ≤ (i 0).val ∧ (i 0).val < win0_8.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win0_8.index ⟨(i 0).val / 5000, hN⟩ (1 : Fin 2) * 128 ≤ (i 1).val ∧ (i 1).val < win0_8.index ⟨(i 0).val / 5000, hN⟩ (1 : Fin 2) * 128 + 128
    rw [e9]; omega

end Cert.KernelIdeal.Blocks

end
-- ==== Proof.TileValue.lean ====
/-
  What one grid point computes, entry by entry.

  A point holds a tile of 5000 rows: the node features `x`, the first-hop means `p1`, the second-hop
  sums `s2` (each 5000 × 128), the column `r` of reciprocal degrees (5000 × 1), the three 128 × 128
  weight blocks and the bias row. Entry `(p, q)` of what it stores is
    Σₖ x[p,k]·w0[k,q] + Σₖ p1[p,k]·w1[k,q] + Σₖ (s2[p,k]·r[p])·w2[k,q] + b[q]:
  each product into a zero accumulator is the plain sum over the contracted axis, roundings to a
  narrower format are the identity on the extended reals, the degree column and the bias row are
  read at coordinate 0 of their unit axes.
-/
import proofs.«112017_j5179730559346_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The tile product's operand indices -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into the zero accumulator, at entry `(p, q)`: the sum over the 128 contracted
    coordinates of row `p` of the left factor against column `q` of the right. -/
theorem product_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The unit axes -/

/-- The reciprocal-degree column spread along the features reads, at `(p, k)`, the column's entry `(p, 0)`. -/
theorem column_spread (r : Vec Ideal S5000x1 .f32) (p : Fin 5000) (k : Fin 128) :
    broadcastTo S5000x128 r broadcasts_S5000x1_S5000x128 (ix2 p k) = r (ix2 p 0) :=
  broadcastTo_apply r broadcasts_S5000x1_S5000x128 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The bias row spread along the rows reads, at `(p, q)`, the row's entry `(0, q)`. -/
theorem row_spread (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The stored tile -/

/-- Entry `(p, q)` of the tile a grid point stores, from the blocks it loaded. -/
theorem tile_apply (x p1 s2 : Vec Ideal S5000x128 .f32) (r : Vec Ideal S5000x1 .f32)
    (w0 w1 w2 : Vec Ideal S128x128 .bf16) (b : Vec Ideal S1x128 .f32) (p : Fin 5000) (q : Fin 128) :
    k0_pay1 (F := Ideal) x p1 s2 r w0 w1 w2 b (ix2 p q)
      = ((∑ k : Fin 128, x (ix2 p k) * w0 (ix2 k q)) + (∑ k : Fin 128, p1 (ix2 p k) * w1 (ix2 k q))
          + ∑ k : Fin 128, (s2 (ix2 p k) * r (ix2 p 0)) * w2 (ix2 k q)) + b (ix2 0 q) := by
  unfold k0_pay1
  simp only [shapeCast_self]
  show (FloatOps.matmul (F := Ideal) dot_S5000x128_S128x128_S5000x128_1_0_0_1_n_n none _ _ _ (ix2 p q) + FloatOps.matmul (F := Ideal) dot_S5000x128_S128x128_S5000x128_1_0_0_1_n_n none _ _ _ (ix2 p q)
    + FloatOps.matmul (F := Ideal) dot_S5000x128_S128x128_S5000x128_1_0_0_1_n_n none _ _ _ (ix2 p q)) + broadcastTo S5000x128 b broadcasts_S1x128_S5000x128 (ix2 p q) = _
  rw [product_apply, product_apply, product_apply, row_spread]
  simp only [truncf_apply, mulf_apply]
  refine congrArg (fun z => ((∑ k : Fin 128, x (ix2 p k) * w0 (ix2 k q)) + (∑ k : Fin 128, p1 (ix2 p k) * w1 (ix2 k q)) + z)
    + b (ix2 0 q)) (Finset.sum_congr rfl fun k _ => ?_)
  exact congrArg (fun z => s2 (ix2 p k) * z * w2 (ix2 k q)) (column_spread r p k)

end Cert.KernelIdeal.Tile

end
-- ==== Proof.LayerSpec.lean ====
/-
  The layer both programs compute, as one function of whole arrays.

  For 50000 nodes with 128 features, given the features `x`, the first-hop means `p1`, the second-hop sums
  `s2` with the column `r` of reciprocal degrees, three 128 × 128 weight blocks and a bias row, output entry
  `(p, q)` is
    Σₖ x[p,k]·w0[k,q] + Σₖ p1[p,k]·w1[k,q] + Σₖ (s2[p,k]·r[p])·w2[k,q] + b[q].
-/
import Idealize.ShloMosaic.PureOps.Ideal
import Idealize.ShloMosaic.Lib.ValueIdx

noncomputable section

namespace Cert.Layer

open Idealize.ShloMosaic Idealize.ShloMosaic.ValueIdx

/-- Node features: 50000 × 128. -/
abbrev Nodes : Shape := ⟨2, ![50000, 128]⟩
/-- One number per node, as a column: 50000 × 1. -/
abbrev NodeCol : Shape := ⟨2, ![50000, 1]⟩
/-- One weight block: 128 × 128. -/
abbrev Block : Shape := ⟨2, ![128, 128]⟩
/-- The bias, as a row: 1 × 128. -/
abbrev BiasRow : Shape := ⟨2, ![1, 128]⟩

/-- Output entry `(p, q)`. -/
def entry (x p1 s2 : Nodes.Idx → EReal) (r : NodeCol.Idx → EReal) (w0 w1 w2 : Block.Idx → EReal) (b : BiasRow.Idx → EReal)
    (p : Fin 50000) (q : Fin 128) : EReal :=
  ((∑ k : Fin 128, x (ix2 p k) * w0 (ix2 k q)) + (∑ k : Fin 128, p1 (ix2 p k) * w1 (ix2 k q))
    + ∑ k : Fin 128, (s2 (ix2 p k) * r (ix2 p 0)) * w2 (ix2 k q)) + b (ix2 0 q)

/-- The output array. -/
def layer (x p1 s2 : Nodes.Idx → EReal) (r : NodeCol.Idx → EReal) (w0 w1 w2 : Block.Idx → EReal) (b : BiasRow.Idx → EReal) :
    Nodes.Idx → EReal :=
  fun i => entry x p1 s2 r w0 w1 w2 b (i 0) (i 1)

theorem layer_apply (x p1 s2 : Nodes.Idx → EReal) (r : NodeCol.Idx → EReal) (w0 w1 w2 : Block.Idx → EReal) (b : BiasRow.Idx → EReal)
    (p : Fin 50000) (q : Fin 128) : layer x p1 s2 r w0 w1 w2 b (ix2 p q) = entry x p1 s2 r w0 w1 w2 b p q := rfl

end Cert.Layer

end
-- ==== Proof.Whole.lean ====
/-
  The kernel's output array after its run, whole.

  What point `t` computes from its blocks (TileValue) is, entry by entry, the layer of LayerSpec of the WHOLE
  arrays the region finds, read at the rows `5000 t …` the point holds (Blocks): each block entry is the array's
  entry at the point's rows, the weight blocks and the bias row are whole. So every point writes back its block of
  one function of the region-entry arrays; the ten blocks tile the output; the output array ends holding that function.
-/
import proofs.«112017_j5179730559346_2_alg».proof.Proof.Blocks
import proofs.«112017_j5179730559346_2_alg».proof.Proof.TileValue
import proofs.«112017_j5179730559346_2_alg».proof.Proof.LayerSpec

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A tile whose blocks are rows `P` (for tile row `p`) of whole arrays, whole weight blocks and the whole bias row
    stores, at `(p, q)`, the layer's entry `(P, q)` of those arrays. -/
theorem tile_of_arrays (X P1 S2 : Cert.Layer.Nodes.Idx → EReal) (Rc : Cert.Layer.NodeCol.Idx → EReal)
    (W0 W1 W2 : Cert.Layer.Block.Idx → EReal) (B : Cert.Layer.BiasRow.Idx → EReal)
    (x p1 s2 : Vec Ideal S5000x128 .f32) (r : Vec Ideal S5000x1 .f32) (w0 w1 w2 : Vec Ideal S128x128 .bf16) (b : Vec Ideal S1x128 .f32)
    (p : Fin 5000) (q : Fin 128) (P : Fin 50000)
    (hx : ∀ k : Fin 128, x (ix2 p k) = X (ix2 P k)) (hp1 : ∀ k : Fin 128, p1 (ix2 p k) = P1 (ix2 P k))
    (hs2 : ∀ k : Fin 128, s2 (ix2 p k) = S2 (ix2 P k)) (hr : r (ix2 p 0) = Rc (ix2 P 0))
    (hw0 : ∀ k : Fin 128, w0 (ix2 k q) = W0 (ix2 k q)) (hw1 : ∀ k : Fin 128, w1 (ix2 k q) = W1 (ix2 k q))
    (hw2 : ∀ k : Fin 128, w2 (ix2 k q) = W2 (ix2 k q)) (hb : b (ix2 0 q) = B (ix2 0 q)) :
    k0_pay1 (F := Ideal) x p1 s2 r w0 w1 w2 b (ix2 p q) = Cert.Layer.entry X P1 S2 Rc W0 W1 W2 B P q := by
  rw [Tile.tile_apply]
  unfold Cert.Layer.entry
  rw [hr, hb]
  refine congrArg₂ (· + ·) (congrArg₂ (· + ·) (congrArg₂ (· + ·) ?_ ?_) ?_) rfl <;> refine Finset.sum_congr rfl fun k _ => ?_
  · rw [hx k, hw0 k]
  · rw [hp1 k, hw1 k]
  · rw [hs2 k, hw2 k]

/-- What point `t` writes back is block `t` of the layer of the arrays the region finds. -/
theorem flushed_eq (c : Dev nD) (t : Fin cfg0.N) :
    (dats m 0 c).flushed 8 t = ((cfg0.win 8).blk t).view.read (Elt Ideal)
      (Cert.Layer.layer (V m c main_arg0) (V m c main_v24) (V m c main_v34) (V m c main_v12) (V m c main_v37) (V m c main_v39) (V m c main_v41) (V m c main_v42)) := by
  rw [Value.flushed8]
  unfold out0_8
  rw [View.canon_unit_zero Blocks.origin]
  simp only [View.ld_unit_zero (S := S5000x128) Blocks.origin, View.ld_unit_zero (S := S5000x1) Blocks.origin,
    View.ld_unit_zero (S := S128x128) Blocks.origin, View.ld_unit_zero (S := S1x128) Blocks.origin]
  funext j
  obtain ⟨p, q, rfl⟩ : ∃ (p : Fin 5000) (q : Fin 128), j = ix2 p q := ⟨j 0, j 1, eq_ix2 j⟩
  have ht := Blocks.point_lt t
  let P : Fin 50000 := ⟨t.val * 5000 + p.val, by have := p.isLt; omega⟩
  have hP : P.val = t.val * 5000 + p.val := rfl
  show k0_pay1 (F := Ideal) (iblk m c 0 t) (iblk m c 1 t) (iblk m c 2 t) (iblk m c 3 t) (iblk m c 4 t) (iblk m c 5 t) (iblk m c 6 t) (iblk m c 7 t) (ix2 p q)
    = Cert.Layer.layer (V m c main_arg0) (V m c main_v24) (V m c main_v34) (V m c main_v12) (V m c main_v37) (V m c main_v39) (V m c main_v41) (V m c main_v42) (((cfg0.win 8).blk t).view.emb (ix2 p q))
  refine (tile_of_arrays (V m c main_arg0) (V m c main_v24) (V m c main_v34) (V m c main_v12) (V m c main_v37) (V m c main_v39) (V m c main_v41) (V m c main_v42)
    (iblk m c 0 t) (iblk m c 1 t) (iblk m c 2 t) (iblk m c 3 t) (iblk m c 4 t) (iblk m c 5 t) (iblk m c 6 t) (iblk m c 7 t) p q P
    (fun k => Blocks.features_block m c t p k P hP) (fun k => Blocks.means_block m c t p k P hP)
    (fun k => Blocks.sums_block m c t p k P hP) (Blocks.recip_block m c t p P hP)
    (fun k => Blocks.weights0_block m c t k q) (fun k => Blocks.weights1_block m c t k q)
    (fun k => Blocks.weights2_block m c t k q) (Blocks.bias_block m c t q)).trans ?_
  exact (congrArg (Cert.Layer.layer (V m c main_arg0) (V m c main_v24) (V m c main_v34) (V m c main_v12) (V m c main_v37) (V m c main_v39) (V m c main_v41) (V m c main_v42)) (Blocks.out_place t p q P hP)).symm

/-- The output array after the run is the layer of the arrays the region finds. -/
theorem final (c : Dev nD) : (dats m 0 c).arrAt 8 cfg0.N = Cert.Layer.layer (V m c main_arg0) (V m c main_v24) (V m c main_v34) (V m c main_v12) (V m c main_v37) (V m c main_v39) (V m c main_v41) (V m c main_v42) :=
  (dats m 0 c).arrAt_eq_of_cover 8 (Cert.Layer.layer (V m c main_arg0) (V m c main_v24) (V m c main_v34) (V m c main_v12) (V m c main_v37) (V m c main_v39) (V m c main_v41) (V m c main_v42)) (fun t _ => flushed_eq m c t) Blocks.cover

/-- The kernel's run: it terminates with the output array at the layer of the region-entry arrays, the arguments unchanged. -/
theorem run : θ_run defs (onTc (τ := τ) (main (F := Ideal))) ⟨m, fun _ => 0, ρ⟩ fun r => ∀ c : Dev nD,
      r.2.mem ((c : Thread nD τ).loc main_v43) = Cert.Layer.layer (V m c main_arg0) (V m c main_v24) (V m c main_v34) (V m c main_v12) (V m c main_v37) (V m c main_v39) (V m c main_v41) (V m c main_v42)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.MeanAlgebra.lean ====
/-
  The scalar and summation laws the two programs differ by, on the extended reals.

  A mean over incoming edges is written two ways: the sum divided by the clamped degree `d = max deg 1`,
  or the sum multiplied by the reciprocal `1 / d` computed once. Off zero the quotient of the extended
  reals is the product with the inverse, so the two agree for every extended real sum, infinite ones
  included, as soon as `d ≠ 0`; and `d ≥ 1`. A contraction over 384 features is the sum of the
  contractions over its three consecutive blocks of 128.
-/
import Idealize.ShloMosaic.PureOps.Ideal
import Mathlib.Algebra.BigOperators.Fin

noncomputable section

namespace Cert.MeanHop

open Idealize.ShloMosaic

/-- The float word of `1.0` denotes the extended real `1`. -/
theorem ofBits_one : Ideal.ofBits .f32 0x3F800000#32 = 1 := by
  simp [Ideal.ofBits, Ideal.ieee, -EReal.coe_mul]; norm_num

/-- A degree clamped below by one is not zero. -/
theorem max_one_ne_zero (a : EReal) : max a (1 : EReal) ≠ 0 :=
  ne_of_gt (lt_of_lt_of_le zero_lt_one (le_max_right a 1))

/-- Off zero, the product with the reciprocal is the quotient: `s · (1 / d) = s / d` for every extended real `s`. -/
theorem mul_recip (s d : EReal) (hd : d ≠ 0) : s * Ideal.div 1 d = Ideal.div s d := by
  rw [Ideal.div, if_neg hd, one_mul, Ideal.div, if_neg hd]

/-- The mean over a clamped degree, both ways. -/
theorem mul_recip_clamped (s a : EReal) : s * Ideal.div 1 (max a 1) = Ideal.div s (max a 1) :=
  mul_recip s _ (max_one_ne_zero a)

/-- A sum over 384 consecutive indices is the sum over its three blocks of 128. -/
theorem sum_three_blocks {M : Type*} [AddCommMonoid M] (f : Fin 384 → M) :
    ∑ k : Fin 384, f k = (∑ k : Fin 128, f ⟨k.val, by omega⟩) + (∑ k : Fin 128, f ⟨128 + k.val, by omega⟩)
      + ∑ k : Fin 128, f ⟨256 + k.val, by omega⟩ := by
  rw [← Equiv.sum_comp (finCongr (show 128 + 128 + 128 = 384 from rfl)) f, Fin.sum_univ_add, Fin.sum_univ_add]
  refine congrArg₂ (· + ·) (congrArg₂ (· + ·) ?_ ?_) ?_ <;>
    exact Finset.sum_congr rfl fun k _ => congrArg f (Fin.ext (by simp <;> omega))

end Cert.MeanHop

end
-- ==== Proof.MeanArrays.lean ====
/-
  The mean over incoming edges, on whole arrays.

  A per-node number stood up as a column and spread along the 128 features reads, at `(p, q)`, the number of
  node `p`. So the array of edge sums times the spread reciprocal of the clamped degree is, entry by entry,
  the array of edge sums divided by the spread clamped degree (MeanAlgebra's scalar law at every entry).
-/
import Idealize.ShloMosaic.Lib.Pipeline.Value
import Idealize.ShloMosaic.Lib.ValueIdx
import proofs.«112017_j5179730559346_2_alg».proof.Proof.MeanAlgebra

noncomputable section

namespace Cert.MeanHop

open Idealize.ShloMosaic Idealize.ShloMosaic.ValueIdx

/-- One number per node. -/
abbrev PerNode : Shape := ⟨1, ![50000]⟩
/-- One number per node, as a column. -/
abbrev NodeCol : Shape := ⟨2, ![50000, 1]⟩
/-- Node features. -/
abbrev Nodes : Shape := ⟨2, ![50000, 128]⟩

/-- A per-node array stood up as a column reads, at `(p, 0)`, node `p`'s number. -/
theorem column_apply {α : Type} (h1 : PerNode.BroadcastsInDim NodeCol (![0] : Fin 1 → Fin NodeCol.rank)) (y : PerNode.Idx → α)
    (p : Fin 50000) : broadcastInDim NodeCol ![0] h1 y (ix2 p 0) = y (ix1 p) :=
  broadcastInDim_apply _ h1 y (ix2 p 0) (ix1 p) (fun a => match a with
    | ⟨0, _⟩ => by show p.val = if (50000 : Nat) = 1 then 0 else p.val; rw [if_neg (by decide)])

/-- A column spread along the features reads, at `(p, q)`, the column's entry `(p, 0)`. -/
theorem spread_apply {α : Type} (h2 : NodeCol.BroadcastsInDim Nodes (![0, 1] : Fin 2 → Fin Nodes.rank)) (y : NodeCol.Idx → α)
    (p : Fin 50000) (q : Fin 128) : broadcastInDim Nodes ![0, 1] h2 y (ix2 p q) = y (ix2 p 0) :=
  broadcastInDim_apply _ h2 y (ix2 p q) (ix2 p 0) (fun a => match a with
    | ⟨0, _⟩ => by show p.val = if (50000 : Nat) = 1 then 0 else p.val; rw [if_neg (by decide)]
    | ⟨1, _⟩ => by show 0 = if (1 : Nat) = 1 then 0 else q.val; rw [if_pos rfl])

/-- Edge sums times the reciprocal of the clamped degree are edge sums over the clamped degree, as arrays: at every
    entry the degree is at least one, so not zero, and the product with the reciprocal is the quotient. -/
theorem mean_both_ways (h1 : PerNode.BroadcastsInDim NodeCol (![0] : Fin 1 → Fin NodeCol.rank))
    (h2 : NodeCol.BroadcastsInDim Nodes (![0, 1] : Fin 2 → Fin Nodes.rank))
    (S : FVec Ideal Nodes .f32) (deg one : FVec Ideal PerNode .f32) (hone : ∀ j, one j = 1) :
    mulf S (broadcastInDim Nodes ![0, 1] h2 (broadcastInDim NodeCol ![0] h1 (Host.divf one (maximumf deg one))))
      = Host.divf S (broadcastInDim Nodes ![0, 1] h2 (broadcastInDim NodeCol ![0] h1 (maximumf deg one))) := by
  funext i
  obtain ⟨p, q, rfl⟩ : ∃ (p : Fin 50000) (q : Fin 128), i = ix2 p q := ⟨i 0, i 1, eq_ix2 i⟩
  show S (ix2 p q) * broadcastInDim Nodes ![0, 1] h2 (broadcastInDim NodeCol ![0] h1 (Host.divf one (maximumf deg one))) (ix2 p q)
    = Ideal.div (S (ix2 p q)) (broadcastInDim Nodes ![0, 1] h2 (broadcastInDim NodeCol ![0] h1 (maximumf deg one)) (ix2 p q))
  rw [spread_apply, spread_apply, column_apply, column_apply]
  show S (ix2 p q) * Ideal.div (one (ix1 p)) (max (deg (ix1 p)) (one (ix1 p))) = Ideal.div (S (ix2 p q)) (max (deg (ix1 p)) (one (ix1 p)))
  rw [hone]
  exact mul_recip_clamped _ _

/-- The same at one entry, with the reciprocal column given by name: an edge sum at `(p, k)` times the column's
    entry for node `p` is the array of edge sums over the spread clamped degree, at `(p, k)`. -/
theorem second_hop (h1 : PerNode.BroadcastsInDim NodeCol (![0] : Fin 1 → Fin NodeCol.rank))
    (h2 : NodeCol.BroadcastsInDim Nodes (![0, 1] : Fin 2 → Fin Nodes.rank))
    (S : FVec Ideal Nodes .f32) (deg one : FVec Ideal PerNode .f32) (hone : ∀ j, one j = 1)
    (col : NodeCol.Idx → EReal) (hcol : col = broadcastInDim NodeCol ![0] h1 (Host.divf one (maximumf deg one)))
    (p : Fin 50000) (k : Fin 128) :
    S (ix2 p k) * col (ix2 p 0)
      = Host.divf S (broadcastInDim Nodes ![0, 1] h2 (broadcastInDim NodeCol ![0] h1 (maximumf deg one))) (ix2 p k) := by
  subst hcol
  refine Eq.trans ?_ (congrFun (mean_both_ways h1 h2 S deg one hone) (ix2 p k))
  show _ = S (ix2 p k) * broadcastInDim Nodes ![0, 1] h2 (broadcastInDim NodeCol ![0] h1 (Host.divf one (maximumf deg one))) (ix2 p k)
  rw [spread_apply]

end Cert.MeanHop

end
-- ==== Proof.Entry.lean ====
/-
  The arrays the kernel's region finds, in the reference's own terms.

  Before its region the kernel's host code computes, from the same edge list: the degree of every node (a
  scatter-add of ones over the destinations), its clamped reciprocal as a column, the first-hop means (edge sums of
  gathered feature rows, times that column spread along the features), and the second-hop sums (the same edge sums
  of the first-hop means). The reference computes the same edge sums and degrees with the same operations, and
  divides where the kernel multiplies by the reciprocal. So: the first-hop means the region finds ARE the
  reference's (MeanArrays), hence the second-hop sums are the reference's second edge sums; the reciprocal column at
  node `p` is one over the reference's clamped degree; weight block `j` at `(k, q)` is `W[q, 128 j + k]`; the bias
  row at `(0, q)` is `b[q]`.
-/
import proofs.«112017_j5179730559346_2_alg».proof.Proof.Gen.KernelIdeal.Frame
import proofs.«112017_j5179730559346_2_alg».proof.Proof.Gen.ReferenceIdeal.Read
import proofs.«112017_j5179730559346_2_alg».proof.Proof.MeanArrays

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The degrees -/

/-- The array of ones the degrees are clamped against is one at every node. -/
theorem ones_apply (j : S50000.Idx) : Cert.ReferenceIdeal.Read.val_main_v18 (F := Ideal) j = 1 := by
  rw [Cert.ReferenceIdeal.Read.val_main_v18_apply, Cert.ReferenceIdeal.Read.val_main_cst_3_apply]
  exact Cert.MeanHop.ofBits_one

/-- So is the array of ones of the reference's second degree computation. -/
theorem ones_apply' (j : S50000.Idx) : Cert.ReferenceIdeal.Read.val_main_v37 (F := Ideal) j = 1 := by
  rw [Cert.ReferenceIdeal.Read.val_main_v37_apply, Cert.ReferenceIdeal.Read.val_main_cst_9_apply]
  exact Cert.MeanHop.ofBits_one

/-- The reciprocal-degree column the region finds: one over the reference's clamped degree (as the reference computes it
    for its second hop: the same operations of the same edge list as for its first), stood up as a column. -/
theorem recip_entry (c : Dev nD) :
    @Eq (S50000x1.Idx → EReal) (V m c main_v12)
      (broadcastInDim S50000x1 ![0] bcast_S50000_S50000x1_0
        (Host.divf (F := Ideal) (φ := .f32) (Cert.ReferenceIdeal.Read.val_main_v37 (F := Ideal))
          (maximumf (F := Ideal) (φ := .f32) (Cert.ReferenceIdeal.Read.val_main_v36 (F := Ideal) (m ((c : Thread nD τ).loc main_arg1))) (Cert.ReferenceIdeal.Read.val_main_v37 (F := Ideal))))) := by
  dsimp only [Gen.V, Gen.hostOps0]; after_results <;> rfl

/-! ## The first hop -/

/-- The first-hop means as the kernel's host code spells them: edge sums times the spread reciprocal column. -/
def meansByRecip (x0 : FVec Ideal S50000x128 .f32) (x1 : IVec S2x800000 32) : FVec Ideal S50000x128 .f32 :=
  mulf (F := Ideal) (φ := .f32) (Cert.ReferenceIdeal.Read.val_main_v13 (F := Ideal) x0 x1)
    (broadcastInDim S50000x128 ![0, 1] bcast_S50000x1_S50000x128_0_1 (broadcastInDim S50000x1 ![0] bcast_S50000_S50000x1_0
      (Host.divf (F := Ideal) (φ := .f32) (Cert.ReferenceIdeal.Read.val_main_v18 (F := Ideal))
        (maximumf (F := Ideal) (φ := .f32) (Cert.ReferenceIdeal.Read.val_main_v17 (F := Ideal) x1) (Cert.ReferenceIdeal.Read.val_main_v18 (F := Ideal))))))

/-- They are the reference's first-hop means: edge sums over the spread clamped degree. -/
theorem meansByRecip_eq (x0 : FVec Ideal S50000x128 .f32) (x1 : IVec S2x800000 32) :
    meansByRecip x0 x1 = Cert.ReferenceIdeal.Read.val_main_v22 (F := Ideal) x0 x1 :=
  Cert.MeanHop.mean_both_ways bcast_S50000_S50000x1_0 bcast_S50000x1_S50000x128_0_1
    (Cert.ReferenceIdeal.Read.val_main_v13 (F := Ideal) x0 x1) (Cert.ReferenceIdeal.Read.val_main_v17 (F := Ideal) x1) (Cert.ReferenceIdeal.Read.val_main_v18 (F := Ideal)) ones_apply

set_option maxHeartbeats 4000000 in
/-- The first-hop means the region finds are the reference's. -/
theorem means_entry (c : Dev nD) :
    @Eq (S50000x128.Idx → EReal) (V m c main_v24) (Cert.ReferenceIdeal.Read.val_main_v22 (F := Ideal) (m ((c : Thread nD τ).loc main_arg0)) (m ((c : Thread nD τ).loc main_arg1))) := by
  refine Eq.trans ?_ (meansByRecip_eq (m ((c : Thread nD τ).loc main_arg0)) (m ((c : Thread nD τ).loc main_arg1)))
  unfold meansByRecip
  dsimp only [Gen.V, Gen.hostOps0]; after_results_simp <;> rfl

/-! ## The second hop -/

set_option maxHeartbeats 4000000 in
/-- The second-hop sums the region finds are the reference's edge sums of its first-hop means. -/
theorem sums_entry (c : Dev nD) :
    @Eq (S50000x128.Idx → EReal) (V m c main_v34) (Cert.ReferenceIdeal.Read.val_main_v32 (F := Ideal) (m ((c : Thread nD τ).loc main_arg0)) (m ((c : Thread nD τ).loc main_arg1))) := by
  have e : @Eq (S50000x128.Idx → EReal) (V m c main_v34)
      (Host.scatterAdd (F := Ideal) (φ := .f32) Cert.ReferenceIdeal.scatter_S50000x128_S800000x1_S800000x128_1_0_0_1 (Cert.ReferenceIdeal.Read.val_main_v30 (F := Ideal)) (Cert.ReferenceIdeal.Read.val_main_v31 (F := Ideal) (m ((c : Thread nD τ).loc main_arg1)))
          (Host.gather Cert.ReferenceIdeal.gather_S50000x128_S800000x1_S800000x128_1_0_n_n_0_1_1128 (meansByRecip (m ((c : Thread nD τ).loc main_arg0)) (m ((c : Thread nD τ).loc main_arg1))) (Cert.ReferenceIdeal.Read.val_main_v28 (F := Ideal) (m ((c : Thread nD τ).loc main_arg1))))) := by
    unfold meansByRecip
    dsimp only [Gen.V, Gen.hostOps0]; after_results_simp <;> rfl
  rw [e, meansByRecip_eq]
  rfl

/-- The second-hop sum at `(p, k)` times node `p`'s reciprocal degree is the reference's second-hop mean at `(p, k)`. -/
theorem second_mean_entry (c : Dev nD) (p : Fin 50000) (k : Fin 128) :
    @HMul.hMul EReal EReal EReal instHMul (V m c main_v34 (ix2 p k)) (V m c main_v12 (ix2 p 0))
      = Cert.ReferenceIdeal.Read.val_main_v41 (F := Ideal) (m ((c : Thread nD τ).loc main_arg0)) (m ((c : Thread nD τ).loc main_arg1)) (ix2 p k) :=
  (congrArg (fun z : EReal => @HMul.hMul EReal EReal EReal instHMul z (V m c main_v12 (ix2 p 0))) (congrFun (sums_entry m c) (ix2 p k))).trans
    (Cert.MeanHop.second_hop bcast_S50000_S50000x1_0 bcast_S50000x1_S50000x128_0_1
      (Cert.ReferenceIdeal.Read.val_main_v32 (F := Ideal) (m ((c : Thread nD τ).loc main_arg0)) (m ((c : Thread nD τ).loc main_arg1))) (Cert.ReferenceIdeal.Read.val_main_v36 (F := Ideal) (m ((c : Thread nD τ).loc main_arg1))) (Cert.ReferenceIdeal.Read.val_main_v37 (F := Ideal)) ones_apply'
      (V m c main_v12) (recip_entry m c) p k)

/-! ## The weights and the bias -/

/-- The first weight block at `(k, q)` is `W[q, k]`. -/
theorem weights0_apply (c : Dev nD) (k q : Fin 128) :
    V m c main_v37 (ix2 k q) = (m ((c : Thread nD τ).loc main_arg2)) (ix2 q ⟨k.val, by omega⟩) := by
  have e : @Eq (S128x128.Idx → EReal) (V m c main_v37)
      (truncf (F := Ideal) (φ := .f32) .bf16 (extractStridedSlice S128x128 ![0, 0] (transpose S384x128 [1, 0] (m ((c : Thread nD τ).loc main_arg2)) transposes_S128x384_S384x128_1_0) slices_S384x128_S128x128_0_0) bitsLt_bf16_f32) := by
    dsimp only [Gen.V, Gen.hostOps0]; after_results <;> rfl
  rw [e]
  show extractStridedSlice S128x128 ![0, 0] (transpose S384x128 [1, 0] (m ((c : Thread nD τ).loc main_arg2)) transposes_S128x384_S384x128_1_0) slices_S384x128_S128x128_0_0 (ix2 k q) = _
  rw [extractStridedSlice_apply _ _ _ (ix2 k q) (ix2 (⟨k.val, by omega⟩ : Fin 384) q) (fun a => match a with
    | ⟨0, _⟩ => (Nat.zero_add _).symm
    | ⟨1, _⟩ => by show q.val = 0 + q.val; omega)]
  exact transpose_apply [1, 0] _ transposes_S128x384_S384x128_1_0 (ix2 (⟨k.val, by omega⟩ : Fin 384) q) (ix2 q ⟨k.val, by omega⟩) (fun b => match b with
    | ⟨0, _⟩ => rfl
    | ⟨1, _⟩ => rfl)

/-- The second weight block at `(k, q)` is `W[q, 128 + k]`. -/
theorem weights1_apply (c : Dev nD) (k q : Fin 128) :
    V m c main_v39 (ix2 k q) = (m ((c : Thread nD τ).loc main_arg2)) (ix2 q ⟨128 + k.val, by omega⟩) := by
  have e : @Eq (S128x128.Idx → EReal) (V m c main_v39)
      (truncf (F := Ideal) (φ := .f32) .bf16 (extractStridedSlice S128x128 ![128, 0] (transpose S384x128 [1, 0] (m ((c : Thread nD τ).loc main_arg2)) transposes_S128x384_S384x128_1_0) slices_S384x128_S128x128_128_0) bitsLt_bf16_f32) := by
    dsimp only [Gen.V, Gen.hostOps0]; after_results <;> rfl
  rw [e]
  show extractStridedSlice S128x128 ![128, 0] (transpose S384x128 [1, 0] (m ((c : Thread nD τ).loc main_arg2)) transposes_S128x384_S384x128_1_0) slices_S384x128_S128x128_128_0 (ix2 k q) = _
  rw [extractStridedSlice_apply _ _ _ (ix2 k q) (ix2 (⟨128 + k.val, by omega⟩ : Fin 384) q) (fun a => match a with
    | ⟨0, _⟩ => rfl
    | ⟨1, _⟩ => by show q.val = 0 + q.val; omega)]
  exact transpose_apply [1, 0] _ transposes_S128x384_S384x128_1_0 (ix2 (⟨128 + k.val, by omega⟩ : Fin 384) q) (ix2 q ⟨128 + k.val, by omega⟩) (fun b => match b with
    | ⟨0, _⟩ => rfl
    | ⟨1, _⟩ => rfl)

/-- The third weight block at `(k, q)` is `W[q, 256 + k]`. -/
theorem weights2_apply (c : Dev nD) (k q : Fin 128) :
    V m c main_v41 (ix2 k q) = (m ((c : Thread nD τ).loc main_arg2)) (ix2 q ⟨256 + k.val, by omega⟩) := by
  have e : @Eq (S128x128.Idx → EReal) (V m c main_v41)
      (truncf (F := Ideal) (φ := .f32) .bf16 (extractStridedSlice S128x128 ![256, 0] (transpose S384x128 [1, 0] (m ((c : Thread nD τ).loc main_arg2)) transposes_S128x384_S384x128_1_0) slices_S384x128_S128x128_256_0) bitsLt_bf16_f32) := by
    dsimp only [Gen.V, Gen.hostOps0]; after_results <;> rfl
  rw [e]
  show extractStridedSlice S128x128 ![256, 0] (transpose S384x128 [1, 0] (m ((c : Thread nD τ).loc main_arg2)) transposes_S128x384_S384x128_1_0) slices_S384x128_S128x128_256_0 (ix2 k q) = _
  rw [extractStridedSlice_apply _ _ _ (ix2 k q) (ix2 (⟨256 + k.val, by omega⟩ : Fin 384) q) (fun a => match a with
    | ⟨0, _⟩ => rfl
    | ⟨1, _⟩ => by show q.val = 0 + q.val; omega)]
  exact transpose_apply [1, 0] _ transposes_S128x384_S384x128_1_0 (ix2 (⟨256 + k.val, by omega⟩ : Fin 384) q) (ix2 q ⟨256 + k.val, by omega⟩) (fun b => match b with
    | ⟨0, _⟩ => rfl
    | ⟨1, _⟩ => rfl)

/-- The bias row at `(0, q)` is `b[q]`. -/
theorem bias_apply (c : Dev nD) (q : Fin 128) : V m c main_v42 (ix2 0 q) = (m ((c : Thread nD τ).loc main_arg3)) (ix1 q) := by
  have e : @Eq (S1x128.Idx → EReal) (V m c main_v42) (shapeCast S1x128 (m ((c : Thread nD τ).loc main_arg3)) shapeCasts_S128_S1x128) := by
    dsimp only [Gen.V, Gen.hostOps0]; after_results <;> rfl
  rw [e]
  refine shapeCast_apply _ shapeCasts_S128_S1x128 (ix2 0 q) (ix1 q) ?_
  rw [Shape.rowMajor_val_one, Shape.rowMajor_val_two]
  show q.val = 0 * 128 + q.val
  omega

end Cert.KernelIdeal.Entry

end
-- ==== Proof.RefLayer.lean ====
/-
  The reference's result, entry by entry.

  The reference lays the features, the first-hop means and the second-hop means side by side as 384 columns,
  contracts them against the transposed 128 × 384 weights and adds the bias. Entry `(p, q)` is therefore the sum
  over 384 columns of row `p` against row `q` of `W`, which splits into the three blocks of 128: the features
  against `W[q, k]`, the first-hop means against `W[q, 128 + k]`, the second-hop means against `W[q, 256 + k]`;
  plus `b[q]`.
-/
import proofs.«112017_j5179730559346_2_alg».proof.Proof.Gen.ReferenceIdeal.Read
import proofs.«112017_j5179730559346_2_alg».proof.Proof.MeanArrays

noncomputable section

namespace Cert.ReferenceIdeal.Layer

open Cert.ReferenceIdeal Cert.ReferenceIdeal.Gen Cert.ReferenceIdeal.Read Idealize.ShloMosaic Idealize.ShloMosaic.ValueIdx

/-! ## Three arrays side by side -/

/-- Columns 0 … 127 of three node arrays laid side by side are the first array's. -/
theorem beside_first (a0 a1 a2 : S50000x128.Idx → EReal) (p : Fin 50000) (k : Fin 128) :
    concatenate S50000x384 1 [⟨S50000x128, a0⟩, ⟨S50000x128, a1⟩, ⟨S50000x128, a2⟩] concatenates_S50000x128_S50000x128_S50000x128_S50000x384_d1
        (ix2 p (⟨k.val, by omega⟩ : Fin 384)) = a0 (ix2 p k) :=
  concatenate_apply_piece 1 [⟨S50000x128, a0⟩, ⟨S50000x128, a1⟩, ⟨S50000x128, a2⟩] concatenates_S50000x128_S50000x128_S50000x128_S50000x384_d1
    (ix2 p (⟨k.val, by omega⟩ : Fin 384)) 0 (by simp) S50000x128 a0 rfl rfl 0 rfl (ix2 p k)
    (fun b hb => match b, hb with
      | ⟨0, _⟩, _ => rfl
      | ⟨1, _⟩, hb => absurd rfl hb)
    (Nat.zero_add _)

/-- Columns 128 … 255 are the second array's. -/
theorem beside_second (a0 a1 a2 : S50000x128.Idx → EReal) (p : Fin 50000) (k : Fin 128) :
    concatenate S50000x384 1 [⟨S50000x128, a0⟩, ⟨S50000x128, a1⟩, ⟨S50000x128, a2⟩] concatenates_S50000x128_S50000x128_S50000x128_S50000x384_d1
        (ix2 p (⟨128 + k.val, by omega⟩ : Fin 384)) = a1 (ix2 p k) :=
  concatenate_apply_piece 1 [⟨S50000x128, a0⟩, ⟨S50000x128, a1⟩, ⟨S50000x128, a2⟩] concatenates_S50000x128_S50000x128_S50000x128_S50000x384_d1
    (ix2 p (⟨128 + k.val, by omega⟩ : Fin 384)) 1 (by simp) S50000x128 a1 rfl rfl 128 rfl (ix2 p k)
    (fun b hb => match b, hb with
      | ⟨0, _⟩, _ => rfl
      | ⟨1, _⟩, hb => absurd rfl hb)
    rfl

/-- Columns 256 … 383 are the third array's. -/
theorem beside_third (a0 a1 a2 : S50000x128.Idx → EReal) (p : Fin 50000) (k : Fin 128) :
    concatenate S50000x384 1 [⟨S50000x128, a0⟩, ⟨S50000x128, a1⟩, ⟨S50000x128, a2⟩] concatenates_S50000x128_S50000x128_S50000x128_S50000x384_d1
        (ix2 p (⟨256 + k.val, by omega⟩ : Fin 384)) = a2 (ix2 p k) :=
  concatenate_apply_piece 1 [⟨S50000x128, a0⟩, ⟨S50000x128, a1⟩, ⟨S50000x128, a2⟩] concatenates_S50000x128_S50000x128_S50000x128_S50000x384_d1
    (ix2 p (⟨256 + k.val, by omega⟩ : Fin 384)) 2 (by simp) S50000x128 a2 rfl rfl 256 rfl (ix2 p k)
    (fun b hb => match b, hb with
      | ⟨0, _⟩, _ => rfl
      | ⟨1, _⟩, hb => absurd rfl hb)
    rfl

/-! ## The contraction -/

/-- Entry `(p, q)` of the product: row `p` of the 384 columns against row `q` of the weights. -/
theorem product_apply (x0 : FVec Ideal S50000x128 .f32) (x1 : IVec S2x800000 32) (x2 : FVec Ideal S128x384 .f32)
    (p : Fin 50000) (q : Fin 128) :
    val_main_v44 (F := Ideal) x0 x1 x2 (ix2 p q)
      = ∑ k : Fin 384, val_main_v42 (F := Ideal) x0 x1 (ix2 p k) * x2 (ix2 q k) := by
  rw [val_main_v44_apply]
  refine Finset.sum_congr rfl fun k _ => ?_
  rw [val_main_v43_apply]
  exact congrArg₂ (· * ·)
    (congrArg (val_main_v42 (F := Ideal) x0 x1) (funext fun a => Fin.ext (by match a with | ⟨0, _⟩ => rfl | ⟨1, _⟩ => rfl)))
    (congrArg x2 (funext fun a => Fin.ext (by match a with | ⟨0, _⟩ => rfl | ⟨1, _⟩ => rfl)))

/-- The bias spread over the rows reads `b[q]` at `(p, q)`. -/
theorem bias_apply (x3 : FVec Ideal S128 .f32) (p : Fin 50000) (q : Fin 128) :
    val_main_v46 (F := Ideal) x3 (ix2 p q) = x3 (ix1 q) := by
  rw [val_main_v46_apply, val_main_v45_apply]
  exact congrArg x3 (funext fun a => Fin.ext (by match a with | ⟨0, _⟩ => rfl))

/-- Entry `(p, q)` of the reference's result. -/
theorem result_apply (x0 : FVec Ideal S50000x128 .f32) (x1 : IVec S2x800000 32) (x2 : FVec Ideal S128x384 .f32)
    (x3 : FVec Ideal S128 .f32) (p : Fin 50000) (q : Fin 128) :
    val_main_v47 (F := Ideal) x0 x1 x2 x3 (ix2 p q)
      = ((∑ k : Fin 128, x0 (ix2 p k) * x2 (ix2 q (⟨k.val, by omega⟩ : Fin 384)))
          + (∑ k : Fin 128, val_main_v22 (F := Ideal) x0 x1 (ix2 p k) * x2 (ix2 q (⟨128 + k.val, by omega⟩ : Fin 384)))
          + ∑ k : Fin 128, val_main_v41 (F := Ideal) x0 x1 (ix2 p k) * x2 (ix2 q (⟨256 + k.val, by omega⟩ : Fin 384)))
        + x3 (ix1 q) := by
  rw [val_main_v47_apply]
  show val_main_v44 (F := Ideal) x0 x1 x2 (ix2 p q) + val_main_v46 (F := Ideal) x3 (ix2 p q) = _
  rw [product_apply, bias_apply, Cert.MeanHop.sum_three_blocks]
  unfold val_main_v42
  refine congrArg (· + x3 (ix1 q)) (congrArg₂ (· + ·) (congrArg₂ (· + ·) ?_ ?_) ?_) <;> refine Finset.sum_congr rfl fun k _ => ?_
  · exact congrArg (· * _) (beside_first _ _ _ p k)
  · exact congrArg (· * _) (beside_second _ _ _ p k)
  · exact congrArg (· * _) (beside_third _ _ _ p k)

end Cert.ReferenceIdeal.Layer

end
-- ==== Proof.Bridge.lean ====
/-
  The two programs compute one array.

  The kernel's output is the layer (LayerSpec) of the arrays its region finds; entry by entry those are the
  reference's own quantities (Entry): the features themselves, the reference's first-hop means, its second-hop
  means (the second edge sums times the reciprocal clamped degree), rows of `W` read block by block, and the bias.
  The reference's result at the same entry is the same three sums plus the bias (RefLayer).
-/
import proofs.«112017_j5179730559346_2_alg».proof.Proof.Whole
import proofs.«112017_j5179730559346_2_alg».proof.Proof.Entry
import proofs.«112017_j5179730559346_2_alg».proof.Proof.RefLayer

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The layer's entry `(p, q)` when its arrays are, entry by entry, features `X'`, first-hop means `M1`, second-hop
    means `M2` (the sums times the reciprocal column), rows of one 128 × 384 weight array `W` and a bias vector `b`. -/
theorem entry_of (X P1 S2 : Cert.Layer.Nodes.Idx → EReal) (Rc : Cert.Layer.NodeCol.Idx → EReal)
    (W0 W1 W2 : Cert.Layer.Block.Idx → EReal) (B : Cert.Layer.BiasRow.Idx → EReal)
    (X' M1 M2 : Cert.Layer.Nodes.Idx → EReal) (W : (⟨2, ![128, 384]⟩ : Shape).Idx → EReal) (b : (⟨1, ![128]⟩ : Shape).Idx → EReal)
    (p : Fin 50000) (q : Fin 128)
    (hx : ∀ k : Fin 128, X (ix2 p k) = X' (ix2 p k)) (hm1 : ∀ k : Fin 128, P1 (ix2 p k) = M1 (ix2 p k))
    (hm2 : ∀ k : Fin 128, S2 (ix2 p k) * Rc (ix2 p 0) = M2 (ix2 p k))
    (hw0 : ∀ k : Fin 128, W0 (ix2 k q) = W (ix2 q (⟨k.val, by omega⟩ : Fin 384)))
    (hw1 : ∀ k : Fin 128, W1 (ix2 k q) = W (ix2 q (⟨128 + k.val, by omega⟩ : Fin 384)))
    (hw2 : ∀ k : Fin 128, W2 (ix2 k q) = W (ix2 q (⟨256 + k.val, by omega⟩ : Fin 384)))
    (hb : B (ix2 0 q) = b (ix1 q)) :
    Cert.Layer.entry X P1 S2 Rc W0 W1 W2 B p q
      = ((∑ k : Fin 128, X' (ix2 p k) * W (ix2 q (⟨k.val, by omega⟩ : Fin 384)))
          + (∑ k : Fin 128, M1 (ix2 p k) * W (ix2 q (⟨128 + k.val, by omega⟩ : Fin 384)))
          + ∑ k : Fin 128, M2 (ix2 p k) * W (ix2 q (⟨256 + k.val, by omega⟩ : Fin 384)))
        + b (ix1 q) := by
  unfold Cert.Layer.entry
  rw [hb]
  refine congrArg (· + b (ix1 q)) (congrArg₂ (· + ·) (congrArg₂ (· + ·) ?_ ?_) ?_) <;> refine Finset.sum_congr rfl fun k _ => ?_
  · rw [hx k, hw0 k]
  · rw [hm1 k, hw1 k]
  · rw [hm2 k, hw2 k]

/-- The layer of the arrays the kernel's region finds is the reference's result of the launch arguments. -/
theorem layer_eq (c : Dev nD) :
    Cert.Layer.layer (V m c main_arg0) (V m c main_v24) (V m c main_v34) (V m c main_v12) (V m c main_v37) (V m c main_v39) (V m c main_v41) (V m c main_v42)
      = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  funext i
  obtain ⟨p, q, rfl⟩ : ∃ (p : Fin 50000) (q : Fin 128), i = ix2 p q := ⟨i 0, i 1, eq_ix2 i⟩
  refine Eq.trans ?_ (Cert.ReferenceIdeal.Layer.result_apply (m ((c : Thread nD τ).loc main_arg0)) (m ((c : Thread nD τ).loc main_arg1)) (m ((c : Thread nD τ).loc main_arg2)) (m ((c : Thread nD τ).loc main_arg3)) p q).symm
  exact entry_of (V m c main_arg0) (V m c main_v24) (V m c main_v34) (V m c main_v12) (V m c main_v37) (V m c main_v39) (V m c main_v41) (V m c main_v42)
    (m ((c : Thread nD τ).loc main_arg0)) (Cert.ReferenceIdeal.Read.val_main_v22 (F := Ideal) (m ((c : Thread nD τ).loc main_arg0)) (m ((c : Thread nD τ).loc main_arg1))) (Cert.ReferenceIdeal.Read.val_main_v41 (F := Ideal) (m ((c : Thread nD τ).loc main_arg0)) (m ((c : Thread nD τ).loc main_arg1))) (m ((c : Thread nD τ).loc main_arg2)) (m ((c : Thread nD τ).loc main_arg3)) p q
    (fun k => congrFun (V_main_arg0 m c) (ix2 p k))
    (fun k => congrFun (Entry.means_entry m c) (ix2 p k))
    (fun k => Entry.second_mean_entry m c p k)
    (fun k => Entry.weights0_apply m c k q) (fun k => Entry.weights1_apply m c k q) (fun k => Entry.weights2_apply m c k q)
    (Entry.bias_apply m c q)

end Cert.KernelIdeal.Bridge

end
-- ==== Proof.lean ====
/-
  A graph convolution with two mean-aggregation hops and one linear layer: kernel against reference.

  Both programs take node features `x` (50000 × 128), an edge list, weights `W` (128 × 384) and a bias. Both form,
  by the same gathers and scatter-adds over the same edges, the in-degree of every node, the edge sums of `x` and
  then the edge sums of the first-hop means. They differ in three spellings:
    · a mean is the sum DIVIDED by `max deg 1` in the reference, the sum TIMES `1 / max deg 1` in the kernel (the
      second hop's product inside the kernel's tiles) — equal on the extended reals because `max deg 1 ≥ 1` is not
      zero, and off zero the quotient IS the product with the inverse, infinite sums included;
    · the reference contracts the 384 columns `[x | p1 | p2]` against `Wᵀ` at once, the kernel adds three
      contractions over 128 columns against the three row blocks of `Wᵀ` — a sum split into consecutive blocks;
    · the kernel works tile by tile over ten blocks of 5000 rows, and rounds operands to a narrower format on the way
      into each product — the tiles cover the rows, and a change of format is the identity on the extended reals.
  No finiteness is used: every law above holds at the infinities.

  Modules: MeanAlgebra (the scalar law, the block split), MeanArrays (the law on whole arrays), LayerSpec (the
  output as one function), TileValue (what a grid point stores), Blocks (which rows a point holds; the cover),
  Whole (the kernel's output array), Entry (the arrays the region finds, in the reference's terms), RefLayer (the
  reference's result at an entry), Bridge (the two are one array).
-/
import proofs.«112017_j5179730559346_2_alg».proof.Defs
import proofs.«112017_j5179730559346_2_alg».proof.Proof.Gen.Kernel
import proofs.«112017_j5179730559346_2_alg».proof.Proof.Gen.Kernel.Skeleton
import proofs.«112017_j5179730559346_2_alg».proof.Proof.Gen.Kernel.Launch
import proofs.«112017_j5179730559346_2_alg».proof.Proof.Gen.Kernel.Points
import proofs.«112017_j5179730559346_2_alg».proof.Proof.Gen.Kernel.Frame
import proofs.«112017_j5179730559346_2_alg».proof.Proof.Gen.KernelIdeal
import proofs.«112017_j5179730559346_2_alg».proof.Proof.Gen.KernelIdeal.Skeleton
import proofs.«112017_j5179730559346_2_alg».proof.Proof.Gen.KernelIdeal.Launch
import proofs.«112017_j5179730559346_2_alg».proof.Proof.Gen.KernelIdeal.Points
import proofs.«112017_j5179730559346_2_alg».proof.Proof.Gen.KernelIdeal.Frame
import proofs.«112017_j5179730559346_2_alg».proof.Proof.Gen.ReferenceIdeal
import proofs.«112017_j5179730559346_2_alg».proof.Proof.Gen.Pre_finite_inputs
import proofs.«112017_j5179730559346_2_alg».proof.Proof.Gen.KernelIdeal.Value
import proofs.«112017_j5179730559346_2_alg».proof.Proof.Gen.ReferenceIdeal.Run
import proofs.«112017_j5179730559346_2_alg».proof.Proof.Gen.ReferenceIdeal.Read
import proofs.«112017_j5179730559346_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel's output array (the layer of the arrays its region finds) and
    the reference's result are one array. -/
theorem algebraic : Cert.algebraic_KernelIdeal_ReferenceIdeal := by
  intro m ρ m' ρ' _ hagree
  refine ⟨fun c => Cert.Layer.layer (Cert.KernelIdeal.Gen.V m c Cert.KernelIdeal.main_arg0) (Cert.KernelIdeal.Gen.V m c Cert.KernelIdeal.main_v24)
      (Cert.KernelIdeal.Gen.V m c Cert.KernelIdeal.main_v34) (Cert.KernelIdeal.Gen.V m c Cert.KernelIdeal.main_v12)
      (Cert.KernelIdeal.Gen.V m c Cert.KernelIdeal.main_v37) (Cert.KernelIdeal.Gen.V m c Cert.KernelIdeal.main_v39)
      (Cert.KernelIdeal.Gen.V m c Cert.KernelIdeal.main_v41) (Cert.KernelIdeal.Gen.V m c Cert.KernelIdeal.main_v42),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v47_eq m' c).trans ?_).trans (Cert.KernelIdeal.Bridge.layer_eq m c).symm
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
